-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S8192x2048 .f32) (main_arg2 : FVec F S8192 .f32) (main_arg3 : FVec F S2048x8192 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S4096x8192 : Shape := ⟨2, ![4096, 8192]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S4096x2048, .bf16⟩
  | .hbm, ⟨6, _⟩ => ⟨S8192x2048, .bf16⟩
  | .hbm, ⟨7, _⟩ => ⟨S2048x8192, .bf16⟩
  | .hbm, ⟨8, _⟩ => ⟨S1x8192, .f32⟩
  | .hbm, ⟨9, _⟩ => ⟨S4096x8192, .bf16⟩
  | .hbm, ⟨10, _⟩ => ⟨S1x2048, .f32⟩
  | .hbm, ⟨11, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S2048x2048, .bf16⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  shapeCasts_S2048_S1x2048 : S2048.ShapeCasts S1x2048
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x8192.size a
  hwx0_3 : ∀ i : grid0.Coords, EltTy.bits .bf16 = 32 ∨ (Rect.block (s := S4096x8192) S1024x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x8192.size a
  hwx1_0 : ∀ i : grid1.Coords, EltTy.bits .bf16 = 32 ∨ (Rect.block (s := S4096x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x8192.size a
  hwx1_1 : ∀ i : grid1.Coords, EltTy.bits .bf16 = 32 ∨ (Rect.block (s := S2048x8192) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x2048.size a
  hwx1_3 : ∀ i : grid1.Coords, EltTy.bits .f32 = 32 ∨ (Rect.block (s := S4096x2048) S1024x2048.size (cc1_transform_3 i) (hinb1_3 i)).WholeWords (EltTy.packing .f32)

variable [Facts₀]

def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S4096x8192 : Shape := ⟨2, ![4096, 8192]⟩
abbrev S1x8192 : Shape := ⟨2, ![1, 8192]⟩
abbrev S_ : Shape := ⟨0, ![]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S4096x8192, .f32⟩
  | .hbm, ⟨6, _⟩ => ⟨S1x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []
  dot_S4096x8192_S2048x8192_S4096x2048_1_1_0_0_n_n_wf : DotDims.WF S4096x8192 S2048x8192 S4096x2048 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf
def dot_S4096x8192_S2048x8192_S4096x2048_1_1_0_0_n_n : DotDims S4096x8192 S2048x8192 S4096x2048 where
  lhsContracting := [1]
  rhsContracting := [1]
  lhsNonContracting := [0]
  rhsNonContracting := [0]
  lhsBatch := []
  rhsBatch := []
  wf := dot_S4096x8192_S2048x8192_S4096x2048_1_1_0_0_n_n_wf

class Facts : Prop extends Facts₀ where

variable [Facts]
-- ==== Proof.K.Region0.lean ====
/-
  The first layer's kernel region, at any float instance: a 4 x 4 grid whose point (j, i) multiplies row block i
  of the activations [4096, 2048] by column block j of the weights [8192, 2048] (contracting the full inner axis),
  adds the bias block, clamps at zero and writes block (i, j) of the hidden array [4096, 8192]. The body loads its
  three input blocks whole and stores the output block whole, so what each output block holds after the body is one
  function of the three input blocks (`layer1Block`), and the body's triple, the proof data and the body obligation
  follow from it for any contents `V` of the buffers at the region's entry.
-/
import proofs.«136092_j20504173871714_2_alg».proof.Proof.Gen.Kernel.Launch
import proofs.«136092_j20504173871714_2_alg».proof.Proof.Gen.Kernel.Skeleton
import proofs.«136092_j20504173871714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds row block i at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds column block j at every point: it is fetched when j moves and kept between. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias' staging buffer holds its block j at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev rA : Rect S1024x2048 := Rect.unit (s := S1024x2048) ![0, 0] S1024x2048.size inb_S1024x2048_S1024x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- The output block after the body: relu (a · wᵀ + bias) of the three input blocks, as the one whole-block store leaves it. -/
def layer1Block (x0 : Vec F S1024x2048 .bf16) (x1 : Vec F S2048x2048 .bf16) (x2 : Vec F S1x2048 .f32) : Vec F S1024x2048 .bf16 :=
  View.canon [⟨rA, k0_pay1 (View.ld x0 rA) (View.ld x1 rW) (View.ld x2 rB)⟩]

/-- The one store covers the block. -/
theorem cover0_3 (p0 : Vec F S1024x2048 .bf16) (y : S1024x2048.Idx) :
    ∃ pc ∈ ([⟨rA, p0⟩] : List (View.Piece (Elt F) S1024x2048 .bf16)), y ∈ pc.1.set :=
  View.cover_of_tiled [⟨rA, p0⟩] S1024x2048.size (by rfl) y

/-! ## The body's triple -/

set_option maxHeartbeats 1000000 in
/-- On whole staging buffers holding the three input blocks, the body runs to the end, leaves the inputs as they were
    and the output buffer at `layer1Block` of them. -/
theorem sound_kernel0 (c : Dev nD) (E : Set ℕ) (i : grid0.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .bf16) (harg5 : arg5.IsWhole)
    (x0 : Vec F S1024x2048 .bf16) (x1 : Vec F S2048x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (layer1Block x0 x1 x2)) -∗ K ⟨⟩))
      ⊢ wp frame (wpE (defs₀ (F := F)) Variants.none c none) E (cc0__linear_relu_fullk_kernel i arg2 harg2 arg3 harg3 arg4 harg4 arg5 harg5) K := by
  simp only [cc0__linear_relu_fullk_kernel_eq_skeleton]; unfold cc0__linear_relu_fullk_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as found; after the body at point `t` each input's buffer at its
    block and the output's at `layer1Block` of the three; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => layer1Block (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = layer1Block (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Cases1.lean ====
/-
  The second layer's kernel region, first half: a 4 x 4 grid whose point (i, k) multiplies block (i, k) of the hidden
  array [4096, 8192] by block k of the weights [2048, 8192] (contracting the block's 2048 inner positions) and adds the
  product into an accumulator that lives in a scratch buffer across the four points of a row block i: the accumulator
  is set to zero when k = 0, and when k = 3 the bias is added, the sum is clamped at zero and stored into the output
  block, which is written back only then. Here: the two conditions as functions of the grid point, decided over the
  grid; where the output window is idle; the invariant's shape; and the body's triple in each of the three cases
  (k = 0, k = 1 or 2, k = 3), the pieces each buffer ends with found by running the body.
-/
import proofs.«136092_j20504173871714_2_alg».proof.Proof.Gen.Kernel.Launch
import proofs.«136092_j20504173871714_2_alg».proof.Proof.Gen.Kernel.Skeleton
import proofs.«136092_j20504173871714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "k = 0", as the body computes it from the grid point. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", as the body computes it. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the body stores nothing into the output block and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The buffers the body is called on -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator's scratch buffer. -/
abbrev scM : Memref sig .tc .vmem S1024x2048 .f32 := Memref.whole cc1_scratch0
abbrev VS : View sig .tc .vmem S1024x2048 .f32 := scM.view
/-- One staging buffer of the output window, through which its contents are stated. -/
abbrev VO : View sig .tc .vmem S1024x2048 .f32 := (Memref.whole cc1_stg3_0 : Memref sig .tc .vmem S1024x2048 .f32).view

/-- A scoped buffer of the other region, whole at some contents. -/
abbrev anyAt (c : Dev nD) (b : Ref sig .tc) : sProp 𝕄 :=
  iprop(∃ f : Buf (Elt F) ((c : Thread nD τ).loc b), ((c : Thread nD τ).loc b) ↦{fullShare} f)

/-- The class's invariant spelt out: the other region's eight staging buffers at anything, the accumulator's buffer
    at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1
          ∗ anyAt c cc0_stg3_0 ∗ anyAt c cc0_stg3_1 ∗ (∃ d, owns (c : Thread nD τ) scM fullShare d)) ∗ (∃ r, prngReg c r)) := by
  unfold Pipeline.ΦA; rw [scopedRest1_eq]; simp only [scM, owns_whole]; try rfl

/-! ## The body's triple, case by case -/

set_option maxHeartbeats 1000000 in
/-- k = 0: the accumulator is zeroed, then the product is added. The pieces the accumulator's buffer ends with are
    the witness the run finds. -/
noncomputable def kernelRun1_A (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) :
    { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_reduce_kernel i arg2 harg2 arg3 harg3 arg4 harg4 arg5 harg5 arg6 harg6) K } := by
  refine ⟨?_, fun E K => ?run⟩
  case run =>
    simp only [cc1__linear_relu_reduce_kernel_eq_skeleton]; unfold cc1__linear_relu_reduce_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- k = 1 or 2: the product is added to what the point before left in the accumulator. -/
noncomputable def kernelRun1_B (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) :
    { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_reduce_kernel i arg2 harg2 arg3 harg3 arg4 harg4 arg5 harg5 arg6 harg6) K } := by
  refine ⟨?_, fun E K => ?run⟩
  case run =>
    simp only [cc1__linear_relu_reduce_kernel_eq_skeleton]; unfold cc1__linear_relu_reduce_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- k = 3: the product is added, then bias and clamp go into the output block. -/
noncomputable def kernelRun1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_reduce_kernel i arg2 harg2 arg3 harg3 arg4 harg4 arg5 harg5 arg6 harg6) K } := by
  refine ⟨?_, ?_, fun E K => ?run⟩
  case run =>
    simp only [cc1__linear_relu_reduce_kernel_eq_skeleton]; unfold cc1__linear_relu_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Region1.lean ====
/-
  The second layer's kernel region, second half: what the accumulator and the output block hold after each grid point,
  by recursion on the point (the case the point is in, run on the point's blocks, the accumulator entering at what the
  point before left); the invariant that carries the accumulator from point to point; the proof data; and the body
  obligation at a generic point, by cases on k.
-/
import proofs.«136092_j20504173871714_2_alg».proof.Proof.K.Cases1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias is fetched once, at the first point, into its one buffer and stays there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Where k ≠ 3 the output block is not stored into: a placeholder nothing consults. -/
def idleOut : Vec F S1024x2048 .f32 := VO.read (Elt F) VO.junk

theorem scover1_A (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) (y : S1024x2048.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S1024x2048.size (by sl_kernel_rfl) y

/-- The accumulator after a point with k = 0. -/
def sout1_A (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) : Vec F S1024x2048 .f32 :=
  VS.read (Elt F) (VS.writes (Elt F) VS.junk (kernelRun1_A c i arg2 harg2 arg3 harg3 arg4 harg4 arg5 harg5 arg6 harg6 hc0 hc1 x0 x1).1)

theorem scover1_B (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) (y : S1024x2048.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S1024x2048.size (by sl_kernel_rfl) y

/-- The accumulator after a point with k = 1 or 2, entered at `xs0`. -/
def sout1_B (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) : Vec F S1024x2048 .f32 :=
  VS.read (Elt F) (VS.writes (Elt F) VS.junk (kernelRun1_B c i arg2 harg2 arg3 harg3 arg4 harg4 arg5 harg5 arg6 harg6 hc0 hc1 x0 x1 xs0).1)

theorem cover1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y

/-- The output block after a point with k = 3. -/
def out1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) : Vec F S1024x2048 .f32 :=
  VO.read (Elt F) (VO.writes (Elt F) VO.junk (kernelRun1_C c i arg2 harg2 arg3 harg3 arg4 harg4 arg5 harg5 arg6 harg6 hc0 hc1 x0 x1 x2 xs0).1)

theorem scover1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y

/-- The accumulator after a point with k = 3. -/
def sout1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) : Vec F S1024x2048 .f32 :=
  VS.read (Elt F) (VS.writes (Elt F) VS.junk (kernelRun1_C c i arg2 harg2 arg3 harg3 arg4 harg4 arg5 harg5 arg6 harg6 hc0 hc1 x0 x1 x2 xs0).2.1)

/-! ## What the output block and the accumulator hold after each point -/

/-- After the body at position `n`: (the output's staging buffer, the accumulator). -/
def outsAt1 (c : Dev nD) : (n : ℕ) → n < cfg1.N → Vec F S1024x2048 .f32 × Vec F S1024x2048 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) (ms1_3 t) (hs1_3 t) scM (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) (ms1_3 t) (hs1_3 t) scM (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the class's invariant (the accumulator's buffer at anything); afterwards the
    accumulator's buffer at what the point before left, the other region's buffers at anything, the generator register
    at some state. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1
      ∗ anyAt c cc0_stg3_0 ∗ anyAt c cc0_stg3_1 ∗ owns (c : Thread nD τ) scM fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1
      ∗ anyAt c cc0_stg3_0 ∗ anyAt c cc0_stg3_1 ∗ owns (c : Thread nD τ) scM fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_stg2_0 ∗ anyAt c cc0_stg2_1
      ∗ anyAt c cc0_stg3_0 ∗ anyAt c cc0_stg3_1 ∗ owns (c : Thread nD τ) scM fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by cases on k: the inputs' buffers hold their blocks; the invariant hands the body the
    accumulator at what the point before left (at anything when k = 0 at the very first point) and takes it back at this
    point's contents; where k ≠ 3 the output buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS_castSucc V c t, PhiS_zero V c _ _ hz, PhiA1_eq]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HA1 HA2 HA3 HA4 HA5 HA6 HA7 HA8 HS0 Hg]
        · isplitl [HA1 HA2 HA3 HA4 HA5 HA6 HA7 HA8 HS0]
          ·
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A c _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HA1 HA2 HA3 HA4 HA5 HA6 HA7 HA8 HS0 Hg]
        · isplitl [HA1 HA2 HA3 HA4 HA5 HA6 HA7 HA8 HS0]
          ·
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A c _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      have hz : t.val ≠ 0 := by omega
      rw [PhiS_castSucc V c t, PhiS_pos V c _ _ hz]
      iintro ⟨⟨⟨HA1, HA2, HA3, HA4, HA5, HA6, HA7, HA8, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA1 HA2 HA3 HA4 HA5 HA6 HA7 HA8 HS0 Hg]
      · isplitl [HA1 HA2 HA3 HA4 HA5 HA6 HA7 HA8 HS0]
        ·
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hz : t.val ≠ 0 := by omega
      rw [PhiS_castSucc V c t, PhiS_pos V c _ _ hz]
      iintro ⟨⟨⟨HA1, HA2, HA3, HA4, HA5, HA6, HA7, HA8, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HA1 HA2 HA3 HA4 HA5 HA6 HA7 HA8 HS0 Hg]
      · isplitl [HA1 HA2 HA3 HA4 HA5 HA6 HA7 HA8 HS0]
        ·
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          unfold owns; iexists _; isplitr
          swap; · iexact HS0
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## Into the invariant and out of it -/

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HA7, HA8, HS0⟩, Hg⟩
  isplitl [HA1 HA2 HA3 HA4 HA5 HA6 HA7 HA8 HS0]
  ·
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Fr

end
-- ==== Proof.K.Run.lean ====
/-
  The whole program's run, at any float instance: four host lines (three changes of float format and a reshape of the
  first bias), the first layer's region, one more reshape, the second layer's region. The buffers' contents at each
  boundary are a fold from the launch memory: a host stretch applies its operations, a region replaces its windows'
  arrays by what its write-backs leave. Each region is entered from "every unscoped buffer at the boundary's
  contents" and left at the next boundary's; the second region's invariant carries the accumulator. At the end the
  result array holds what the second region's write-backs leave, and no argument array was written.
-/
import proofs.«136092_j20504173871714_2_alg».proof.Proof.K.Region0
import proofs.«136092_j20504173871714_2_alg».proof.Proof.K.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: the hidden array at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region: the result array at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No host line and no region writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first layer's region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W3`, left at `W4`; its invariant starts as the
    class's and ends giving the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the second region's write-backs leave and every argument array as launched. -/
theorem run : θ_run defs (onTc (τ := τ) (main (F := F))) ⟨m, fun _ => 0, ρ⟩ (fun r => ∀ c : Dev nD,
      r.2.mem ((c.tc : Thread nD τ).loc main_v6) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v6 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.Kernel.Fr

end
-- ==== Proof.KI.Region0.lean ====
/-
  The first layer's kernel region, at any float instance: a 4 x 4 grid whose point (j, i) multiplies row block i
  of the activations [4096, 2048] by column block j of the weights [8192, 2048] (contracting the full inner axis),
  adds the bias block, clamps at zero and writes block (i, j) of the hidden array [4096, 8192]. The body loads its
  three input blocks whole and stores the output block whole, so what each output block holds after the body is one
  function of the three input blocks (`layer1Block`), and the body's triple, the proof data and the body obligation
  follow from it for any contents `V` of the buffers at the region's entry.
-/
import proofs.«136092_j20504173871714_2_alg».proof.Proof.Gen.KernelIdeal.Launch
import proofs.«136092_j20504173871714_2_alg».proof.Proof.Gen.KernelIdeal.Skeleton
import proofs.«136092_j20504173871714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds row block i at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds column block j at every point: it is fetched when j moves and kept between. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias' staging buffer holds its block j at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev rA : Rect S1024x2048 := Rect.unit (s := S1024x2048) ![0, 0] S1024x2048.size inb_S1024x2048_S1024x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- The output block after the body: relu (a · wᵀ + bias) of the three input blocks, as the one whole-block store leaves it. -/
def layer1Block (x0 : Vec F S1024x2048 .bf16) (x1 : Vec F S2048x2048 .bf16) (x2 : Vec F S1x2048 .f32) : Vec F S1024x2048 .bf16 :=
  View.canon [⟨rA, k0_pay1 (View.ld x0 rA) (View.ld x1 rW) (View.ld x2 rB)⟩]

/-- The one store covers the block. -/
theorem cover0_3 (p0 : Vec F S1024x2048 .bf16) (y : S1024x2048.Idx) :
    ∃ pc ∈ ([⟨rA, p0⟩] : List (View.Piece (Elt F) S1024x2048 .bf16)), y ∈ pc.1.set :=
  View.cover_of_tiled [⟨rA, p0⟩] S1024x2048.size (by rfl) y

/-! ## The body's triple -/

set_option maxHeartbeats 1000000 in
/-- On whole staging buffers holding the three input blocks, the body runs to the end, leaves the inputs as they were
    and the output buffer at `layer1Block` of them. -/
theorem sound_kernel0 (c : Dev nD) (E : Set ℕ) (i : grid0.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .bf16) (harg5 : arg5.IsWhole)
    (x0 : Vec F S1024x2048 .bf16) (x1 : Vec F S2048x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (layer1Block x0 x1 x2)) -∗ K ⟨⟩))
      ⊢ wp frame (wpE (defs₀ (F := F)) Variants.none c none) E (cc0__linear_relu_fullk_kernel i arg2 harg2 arg3 harg3 arg4 harg4 arg5 harg5) K := by
  simp only [cc0__linear_relu_fullk_kernel_eq_skeleton]; unfold cc0__linear_relu_fullk_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as found; after the body at point `t` each input's buffer at its
    block and the output's at `layer1Block` of the three; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => layer1Block (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = layer1Block (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Cases1.lean ====
/-
  The second layer's kernel region, first half: a 4 x 4 grid whose point (i, k) multiplies block (i, k) of the hidden
  array [4096, 8192] by block k of the weights [2048, 8192] (contracting the block's 2048 inner positions) and adds the
  product into an accumulator that lives in a scratch buffer across the four points of a row block i: the accumulator
  is set to zero when k = 0, and when k = 3 the bias is added, the sum is clamped at zero and stored into the output
  block, which is written back only then. Here: the two conditions as functions of the grid point, decided over the
  grid; where the output window is idle; the invariant's shape; and the body's triple in each of the three cases
  (k = 0, k = 1 or 2, k = 3), the pieces each buffer ends with found by running the body.
-/
import proofs.«136092_j20504173871714_2_alg».proof.Proof.Gen.KernelIdeal.Launch
import proofs.«136092_j20504173871714_2_alg».proof.Proof.Gen.KernelIdeal.Skeleton
import proofs.«136092_j20504173871714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "k = 0", as the body computes it from the grid point. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", as the body computes it. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the body stores nothing into the output block and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The buffers the body is called on -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator's scratch buffer. -/
abbrev scM : Memref sig .tc .vmem S1024x2048 .f32 := Memref.whole cc1_scratch0
abbrev VS : View sig .tc .vmem S1024x2048 .f32 := scM.view
/-- One staging buffer of the output window, through which its contents are stated. -/
abbrev VO : View sig .tc .vmem S1024x2048 .f32 := (Memref.whole cc1_stg3_0 : Memref sig .tc .vmem S1024x2048 .f32).view

/-- A scoped buffer of the other region, whole at some contents. -/
abbrev anyAt (c : Dev nD) (b : Ref sig .tc) : sProp 𝕄 :=
  iprop(∃ f : Buf (Elt F) ((c : Thread nD τ).loc b), ((c : Thread nD τ).loc b) ↦{fullShare} f)

/-- The class's invariant spelt out: the other region's eight staging buffers at anything, the accumulator's buffer
    at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1
          ∗ anyAt c cc0_stg3_0 ∗ anyAt c cc0_stg3_1 ∗ (∃ d, owns (c : Thread nD τ) scM fullShare d)) ∗ (∃ r, prngReg c r)) := by
  unfold Pipeline.ΦA; rw [scopedRest1_eq]; simp only [scM, owns_whole]; try rfl

/-! ## The body's triple, case by case -/

set_option maxHeartbeats 1000000 in
/-- k = 0: the accumulator is zeroed, then the product is added. The pieces the accumulator's buffer ends with are
    the witness the run finds. -/
noncomputable def kernelRun1_A (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) :
    { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_reduce_kernel i arg2 harg2 arg3 harg3 arg4 harg4 arg5 harg5 arg6 harg6) K } := by
  refine ⟨?_, fun E K => ?run⟩
  case run =>
    simp only [cc1__linear_relu_reduce_kernel_eq_skeleton]; unfold cc1__linear_relu_reduce_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- k = 1 or 2: the product is added to what the point before left in the accumulator. -/
noncomputable def kernelRun1_B (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) :
    { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_reduce_kernel i arg2 harg2 arg3 harg3 arg4 harg4 arg5 harg5 arg6 harg6) K } := by
  refine ⟨?_, fun E K => ?run⟩
  case run =>
    simp only [cc1__linear_relu_reduce_kernel_eq_skeleton]; unfold cc1__linear_relu_reduce_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- k = 3: the product is added, then bias and clamp go into the output block. -/
noncomputable def kernelRun1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_reduce_kernel i arg2 harg2 arg3 harg3 arg4 harg4 arg5 harg5 arg6 harg6) K } := by
  refine ⟨?_, ?_, fun E K => ?run⟩
  case run =>
    simp only [cc1__linear_relu_reduce_kernel_eq_skeleton]; unfold cc1__linear_relu_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Region1.lean ====
/-
  The second layer's kernel region, second half: what the accumulator and the output block hold after each grid point,
  by recursion on the point (the case the point is in, run on the point's blocks, the accumulator entering at what the
  point before left); the invariant that carries the accumulator from point to point; the proof data; and the body
  obligation at a generic point, by cases on k.
-/
import proofs.«136092_j20504173871714_2_alg».proof.Proof.KI.Cases1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias is fetched once, at the first point, into its one buffer and stays there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Where k ≠ 3 the output block is not stored into: a placeholder nothing consults. -/
def idleOut : Vec F S1024x2048 .f32 := VO.read (Elt F) VO.junk

theorem scover1_A (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) (y : S1024x2048.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S1024x2048.size (by sl_kernel_rfl) y

/-- The accumulator after a point with k = 0. -/
def sout1_A (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) : Vec F S1024x2048 .f32 :=
  VS.read (Elt F) (VS.writes (Elt F) VS.junk (kernelRun1_A c i arg2 harg2 arg3 harg3 arg4 harg4 arg5 harg5 arg6 harg6 hc0 hc1 x0 x1).1)

theorem scover1_B (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) (y : S1024x2048.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S1024x2048.size (by sl_kernel_rfl) y

/-- The accumulator after a point with k = 1 or 2, entered at `xs0`. -/
def sout1_B (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) : Vec F S1024x2048 .f32 :=
  VS.read (Elt F) (VS.writes (Elt F) VS.junk (kernelRun1_B c i arg2 harg2 arg3 harg3 arg4 harg4 arg5 harg5 arg6 harg6 hc0 hc1 x0 x1 xs0).1)

theorem cover1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y

/-- The output block after a point with k = 3. -/
def out1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) : Vec F S1024x2048 .f32 :=
  VO.read (Elt F) (VO.writes (Elt F) VO.junk (kernelRun1_C c i arg2 harg2 arg3 harg3 arg4 harg4 arg5 harg5 arg6 harg6 hc0 hc1 x0 x1 x2 xs0).1)

theorem scover1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y

/-- The accumulator after a point with k = 3. -/
def sout1_C (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) : Vec F S1024x2048 .f32 :=
  VS.read (Elt F) (VS.writes (Elt F) VS.junk (kernelRun1_C c i arg2 harg2 arg3 harg3 arg4 harg4 arg5 harg5 arg6 harg6 hc0 hc1 x0 x1 x2 xs0).2.1)

/-! ## What the output block and the accumulator hold after each point -/

/-- After the body at position `n`: (the output's staging buffer, the accumulator). -/
def outsAt1 (c : Dev nD) : (n : ℕ) → n < cfg1.N → Vec F S1024x2048 .f32 × Vec F S1024x2048 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) (ms1_3 t) (hs1_3 t) scM (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) (ms1_3 t) (hs1_3 t) scM (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the class's invariant (the accumulator's buffer at anything); afterwards the
    accumulator's buffer at what the point before left, the other region's buffers at anything, the generator register
    at some state. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1
      ∗ anyAt c cc0_stg3_0 ∗ anyAt c cc0_stg3_1 ∗ owns (c : Thread nD τ) scM fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1
      ∗ anyAt c cc0_stg3_0 ∗ anyAt c cc0_stg3_1 ∗ owns (c : Thread nD τ) scM fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_stg2_0 ∗ anyAt c cc0_stg2_1
      ∗ anyAt c cc0_stg3_0 ∗ anyAt c cc0_stg3_1 ∗ owns (c : Thread nD τ) scM fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by cases on k: the inputs' buffers hold their blocks; the invariant hands the body the
    accumulator at what the point before left (at anything when k = 0 at the very first point) and takes it back at this
    point's contents; where k ≠ 3 the output buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS_castSucc V c t, PhiS_zero V c _ _ hz, PhiA1_eq]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HA1 HA2 HA3 HA4 HA5 HA6 HA7 HA8 HS0 Hg]
        · isplitl [HA1 HA2 HA3 HA4 HA5 HA6 HA7 HA8 HS0]
          ·
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A c _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HA1, HA2, HA3, HA4, HA5, HA6, HA7, HA8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HA1 HA2 HA3 HA4 HA5 HA6 HA7 HA8 HS0 Hg]
        · isplitl [HA1 HA2 HA3 HA4 HA5 HA6 HA7 HA8 HS0]
          ·
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            unfold owns; iexists _; isplitr
            swap; · iexact HS0
            ipureintro; exact View.read_writes_of_cover _ _ _ _ _ (scover1_A c _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      have hz : t.val ≠ 0 := by omega
      rw [PhiS_castSucc V c t, PhiS_pos V c _ _ hz]
      iintro ⟨⟨⟨HA1, HA2, HA3, HA4, HA5, HA6, HA7, HA8, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA1 HA2 HA3 HA4 HA5 HA6 HA7 HA8 HS0 Hg]
      · isplitl [HA1 HA2 HA3 HA4 HA5 HA6 HA7 HA8 HS0]
        ·
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hz : t.val ≠ 0 := by omega
      rw [PhiS_castSucc V c t, PhiS_pos V c _ _ hz]
      iintro ⟨⟨⟨HA1, HA2, HA3, HA4, HA5, HA6, HA7, HA8, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HA1 HA2 HA3 HA4 HA5 HA6 HA7 HA8 HS0 Hg]
      · isplitl [HA1 HA2 HA3 HA4 HA5 HA6 HA7 HA8 HS0]
        ·
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          unfold owns; iexists _; isplitr
          swap; · iexact HS0
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## Into the invariant and out of it -/

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HA7, HA8, HS0⟩, Hg⟩
  isplitl [HA1 HA2 HA3 HA4 HA5 HA6 HA7 HA8 HS0]
  ·
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Fr

end
-- ==== Proof.KI.Run.lean ====
/-
  The whole program's run, at any float instance: four host lines (three changes of float format and a reshape of the
  first bias), the first layer's region, one more reshape, the second layer's region. The buffers' contents at each
  boundary are a fold from the launch memory: a host stretch applies its operations, a region replaces its windows'
  arrays by what its write-backs leave. Each region is entered from "every unscoped buffer at the boundary's
  contents" and left at the next boundary's; the second region's invariant carries the accumulator. At the end the
  result array holds what the second region's write-backs leave, and no argument array was written.
-/
import proofs.«136092_j20504173871714_2_alg».proof.Proof.KI.Region0
import proofs.«136092_j20504173871714_2_alg».proof.Proof.KI.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: the hidden array at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region: the result array at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No host line and no region writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first layer's region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W3`, left at `W4`; its invariant starts as the
    class's and ends giving the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the second region's write-backs leave and every argument array as launched. -/
theorem run : θ_run defs (onTc (τ := τ) (main (F := F))) ⟨m, fun _ => 0, ρ⟩ (fun r => ∀ c : Dev nD,
      r.2.mem ((c.tc : Thread nD τ).loc main_v6) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v6 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.KernelIdeal.Fr

end
-- ==== Proof.Spec.lean ====
/-
  The function both programs compute, over the extended reals: two dense layers, each followed by a clamp at zero,
      hidden[r, c] = max (∑ₖ x[r, k] · W1[c, k] + b1[c], 0)        (k over 2048 positions)
      out[r, c]    = max (∑ₖ hidden[r, k] · W2[c, k] + b2[c], 0)   (k over 8192 positions),
  and the one law that joins the two programs: a sum over 8192 positions may be taken in four consecutive blocks
  of 2048, accumulated from zero in block order (addition of extended reals is commutative and associative, so no
  finiteness is needed).
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- The float zero the clamp compares against and the accumulator starts from: the real number 0. -/
abbrev zr : EReal := Ideal.ofBits .f32 0x00000000#32

/-- A dense layer followed by a clamp at zero: entry (r, c) is max (∑ₖ a[r, k] · w[c, k] + b[c], 0). -/
def layer {B K N : Nat} (a : (⟨2, ![B, K]⟩ : Shape).Idx → EReal) (w : (⟨2, ![N, K]⟩ : Shape).Idx → EReal)
    (b : Fin N → EReal) : (⟨2, ![B, N]⟩ : Shape).Idx → EReal :=
  fun j => max ((∑ k : Fin K, a (ix2 (j 0) k) * w (ix2 (j 1) k)) + b (j 1)) zr

theorem layer_apply {B K N : Nat} (a : (⟨2, ![B, K]⟩ : Shape).Idx → EReal) (w : (⟨2, ![N, K]⟩ : Shape).Idx → EReal)
    (b : Fin N → EReal) (r : Fin B) (c : Fin N) :
    layer a w b (ix2 r c) = max ((∑ k : Fin K, a (ix2 r k) * w (ix2 c k)) + b c) zr := rfl

/-- Four block sums accumulated from zero, in block order, are the whole sum. -/
theorem sum_four_blocks (f : Fin 8192 → EReal) (g : Fin 4 → Fin 2048 → EReal)
    (hg : ∀ (kb : Fin 4) (kk : Fin 2048), g kb kk = f ⟨kb.val * 2048 + kk.val, by have := kb.isLt; have := kk.isLt; omega⟩) :
    zr + (∑ kk, g 0 kk) + (∑ kk, g 1 kk) + (∑ kk, g 2 kk) + (∑ kk, g 3 kk) = ∑ k, f k := by
  have hz : zr = 0 := Ideal.ofBits_zero_f32
  rw [hz, zero_add]
  have e : ∑ x : Fin 4 × Fin 2048, g x.1 x.2 = ∑ k : Fin (4 * 2048), f k :=
    Fintype.sum_equiv (finProdFinEquiv (m := 4) (n := 2048)) (fun x => g x.1 x.2) (fun k : Fin (4 * 2048) => f k) (fun x => by
      rw [hg]; exact congrArg f (Fin.ext (by simp only [finProdFinEquiv_apply_val]; omega)))
  exact ((Fin.sum_univ_four _).symm.trans ((Fintype.sum_prod_type _).symm.trans e))

end Cert.Mlp

end
-- ==== Proof.KI.Pay.lean ====
/-
  The arithmetic of the two kernel bodies at the ideal instance, read at one entry (p, q) of a block: the block
  product contracts the 2048 inner positions of the two operand blocks, the bias row is broadcast down the rows,
  the clamp is a maximum with zero, a change of float format is the identity.
-/
import proofs.«136092_j20504173871714_2_alg».proof.Proof.Gen.KernelIdeal.Skeleton
import proofs.«136092_j20504173871714_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.Mlp
open Idealize.ShloMosaic Idealize.ShloMosaic.TcCoe Idealize.ShloMosaic.ValueIdx Idealize.SL.Sem
open Idealize.ShloMosaic.Pipeline (Dat)

/-- The block product's dimension numbers: rows of the left block against rows of the right, both inner axes contracted. -/
abbrev D : DotDims S1024x2048 S2048x2048 S1024x2048 := dot_S1024x2048_S2048x2048_S1024x2048_1_1_0_0_n_n

theorem lhs0 (i : S1024x2048.Idx) (q : D.contr.Idx) : (D.lhsIdx i q 0).val = (i 0).val := by
  unfold DotDims.lhsIdx
  rw [dif_neg (show ¬(0 : Fin S1024x2048.rank) ∈ D.lhsBatch by decide), dif_pos (show (0 : Fin S1024x2048.rank) ∈ D.lhsNonContracting by decide)]
  rfl
theorem lhs1 (i : S1024x2048.Idx) (q : D.contr.Idx) : (D.lhsIdx i q 1).val = (q ⟨0, by decide⟩).val :=
  D.lhsIdx_val_of_single rfl i q
theorem rhs0 (i : S1024x2048.Idx) (q : D.contr.Idx) : (D.rhsIdx i q 0).val = (i 1).val := by
  unfold DotDims.rhsIdx
  rw [dif_neg (show ¬(0 : Fin S2048x2048.rank) ∈ D.rhsBatch by decide), dif_pos (show (0 : Fin S2048x2048.rank) ∈ D.rhsNonContracting by decide)]
  rfl
theorem rhs1 (i : S1024x2048.Idx) (q : D.contr.Idx) : (D.rhsIdx i q 1).val = (q ⟨0, by decide⟩).val :=
  D.rhsIdx_val_of_single rfl i q

/-- The block product into a zero accumulator, at entry (p, q): ∑ₖ left[p, k] · right[q, k]. -/
theorem matmul_at (v1 : FVec Ideal S1024x2048 .bf16) (v3 : FVec Ideal S2048x2048 .bf16) (p : Fin 1024) (q : Fin 2048) :
    matmul (F := Ideal) D none v1 v3 (constant (F := Ideal) S1024x2048 .f32 0x00000000#32) (ix2 p q)
      = ∑ k : Fin 2048, v1 (ix2 p k) * v3 (ix2 q k) := by
  show FloatOps.matmul D none v1 v3 (constant (F := Ideal) S1024x2048 .f32 0x00000000#32) (ix2 p q) = _
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 2048 rfl rfl).symm k) = ix2 q k := funext fun a => Fin.ext (by
    match a with
    | ⟨0, _⟩ => exact rhs0 _ _
    | ⟨1, _⟩ => exact (rhs1 _ _).trans hk)
  rw [el, er]

/-- The first layer's body at entry (p, q): max (∑ₖ a[p, k] · w[q, k] + bias[0, q], 0). -/
theorem pay0_apply (x0 : Vec Ideal S1024x2048 .bf16) (x1 : Vec Ideal S2048x2048 .bf16) (x2 : Vec Ideal S1x2048 .f32)
    (p : Fin 1024) (q : Fin 2048) :
    k0_pay1 (F := Ideal) x0 x1 x2 (ix2 p q) = max ((∑ k : Fin 2048, x0 (ix2 p k) * x1 (ix2 q k)) + x2 (ix2 (0 : Fin 1) q)) zr := by
  unfold k0_pay1
  simp only [shapeCast_self, truncf_apply, maximumf_apply, addf_apply, broadcast_apply, matmul_at, broadcastTo_1b_ab_apply]
  rfl

/-- The accumulator's reset: zero at every entry. -/
theorem pay1_apply (p : Fin 1024) (q : Fin 2048) : k1_pay1 (F := Ideal) (ix2 p q) = zr := by
  unfold k1_pay1
  simp only [shapeCast_self, broadcast_apply]
  rfl

/-- The accumulation step at entry (p, q): acc[p, q] + ∑ₖ a[p, k] · w[q, k]. -/
theorem pay2_apply (a : Vec Ideal S1024x2048 .f32) (x0 : Vec Ideal S1024x2048 .bf16) (x1 : Vec Ideal S2048x2048 .bf16)
    (p : Fin 1024) (q : Fin 2048) :
    k1_pay2 (F := Ideal) a x0 x1 (ix2 p q) = a (ix2 p q) + ∑ k : Fin 2048, x0 (ix2 p k) * x1 (ix2 q k) := by
  unfold k1_pay2
  simp only [shapeCast_self, addf_apply, matmul_at]

/-- The second layer's last step at entry (p, q): max (acc[p, q] + bias[0, q], 0). -/
theorem pay3_apply (a : Vec Ideal S1024x2048 .f32) (x2 : Vec Ideal S1x2048 .f32) (p : Fin 1024) (q : Fin 2048) :
    k1_pay3 (F := Ideal) a x2 (ix2 p q) = max (a (ix2 p q) + x2 (ix2 (0 : Fin 1) q)) zr := by
  unfold k1_pay3
  simp only [shapeCast_self, maximumf_apply, addf_apply, broadcast_apply, broadcastTo_1b_ab_apply]
  rfl

end Cert.KernelIdeal.Val

end
-- ==== Proof.KI.Final0.lean ====
/-
  What the first region leaves in the hidden array, at the ideal instance: grid point (j, i) writes block (i, j), whose
  entry (p, q) is the body's arithmetic of row i·1024 + p of the activations, row j·2048 + q of the weights and
  position j·2048 + q of the bias; the sixteen blocks tile the array, so the whole array is one dense layer of the
  three arrays the region reads.
-/
import proofs.«136092_j20504173871714_2_alg».proof.Proof.KI.Region0
import proofs.«136092_j20504173871714_2_alg».proof.Proof.KI.Pay

set_option maxRecDepth 16384

noncomputable section

open scoped BigOperators

namespace Cert.KernelIdeal.Val

open Cert.KernelIdeal Cert.KernelIdeal.Gen Cert.Mlp
open Idealize.ShloMosaic Idealize.ShloMosaic.TcCoe Idealize.ShloMosaic.ValueIdx Idealize.SL.Sem
open Idealize.ShloMosaic.Pipeline (Dat)

open Cert.KernelIdeal.Fr

variable (V : (c : Dev nD) → (b : Ref sig .tc) → Buf (Elt Ideal) ((c : Thread nD τ).loc b))

theorem hz : (![0, 0] : Fin 2 → Nat) = fun _ => 0 := funext fun a => by fin_cases a <;> rfl

/-- The hidden array: one dense layer of the activations, the weights and the bias as the region finds them. -/
def hidden (c : Dev nD) : S4096x8192.Idx → EReal :=
  layer (B := 4096) (K := 2048) (N := 8192) (V c main_v0) (V c main_v1) (fun q => V c main_v3 (ix2 (0 : Fin 1) q))

/-- How the four windows' block indices are related at every grid point. -/
theorem idx0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the hidden array is some point's. -/
theorem onto0 : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- A window's block at a point, read at an index: the array at the block's embedding of it. -/
theorem iblk0_apply_0 (c : Dev nD) (t : Fin cfg0.N) (y : ((cfg0.win 0).xblock (cfg0.grid.coords t)).Idx) :
    iblk0 V c 0 t y = V c main_v0 (((cfg0.win 0).blk t).view.emb y) := by
  unfold iblk0; rw [View.read_apply]; rfl
theorem iblk0_apply_1 (c : Dev nD) (t : Fin cfg0.N) (y : ((cfg0.win 1).xblock (cfg0.grid.coords t)).Idx) :
    iblk0 V c 1 t y = V c main_v1 (((cfg0.win 1).blk t).view.emb y) := by
  unfold iblk0; rw [View.read_apply]; rfl
theorem iblk0_apply_2 (c : Dev nD) (t : Fin cfg0.N) (y : ((cfg0.win 2).xblock (cfg0.grid.coords t)).Idx) :
    iblk0 V c 2 t y = V c main_v3 (((cfg0.win 2).blk t).view.emb y) := by
  unfold iblk0; rw [View.read_apply]; rfl

/-- The body's arithmetic on three blocks that are blocks (bi, ·), (bj, ·), (·, bj) of three arrays is the dense layer
    of the arrays at entry (bi·1024 + p, bj·2048 + q). -/
theorem block_layer (x0 : Vec Ideal S1024x2048 .bf16) (x1 : Vec Ideal S2048x2048 .bf16) (x2 : Vec Ideal S1x2048 .f32)
    (A0 : S4096x2048.Idx → EReal) (A1 : S8192x2048.Idx → EReal) (A3 : S1x8192.Idx → EReal) (bi bj : ℕ) (hbi : bi ≤ 3) (hbj : bj ≤ 3)
    (h0 : ∀ (p : Fin 1024) (k : Fin 2048), x0 (ix2 p k) = A0 (ix2 (⟨bi * 1024 + p.val, by have := p.isLt; omega⟩ : Fin 4096) k))
    (h1 : ∀ (q : Fin 2048) (k : Fin 2048), x1 (ix2 q k) = A1 (ix2 (⟨bj * 2048 + q.val, by have := q.isLt; omega⟩ : Fin 8192) k))
    (h2 : ∀ q : Fin 2048, x2 (ix2 (0 : Fin 1) q) = A3 (ix2 (0 : Fin 1) (⟨bj * 2048 + q.val, by have := q.isLt; omega⟩ : Fin 8192)))
    (p : Fin 1024) (q : Fin 2048) :
    k0_pay1 (F := Ideal) x0 x1 x2 (ix2 p q)
      = layer (B := 4096) (K := 2048) (N := 8192) A0 A1 (fun q => A3 (ix2 (0 : Fin 1) q))
          (ix2 (⟨bi * 1024 + p.val, by have := p.isLt; omega⟩ : Fin 4096) (⟨bj * 2048 + q.val, by have := q.isLt; omega⟩ : Fin 8192)) := by
  rw [pay0_apply, layer_apply]
  simp only [h0, h1, h2]

/-- What point `t` writes back is block `t` of the hidden array. -/
theorem flushed0_eq (c : Dev nD) (t : Fin cfg0.N) :
    (dat0 V c).flushed 3 t = ((cfg0.win 3).blk t).view.read (Elt Ideal) (hidden V c) := by
  show (cfg0.win 3).cut (grid0.coords t) ((dat0 V c).after 3 t) = _
  rw [after0_3]
  unfold layer1Block
  rw [View.canon_unit_zero hz]
  simp only [View.ld_unit_zero (S := S1024x2048) hz, View.ld_unit_zero (S := S2048x2048) hz, View.ld_unit_zero (S := S1x2048) hz]
  obtain ⟨e0, e1, e2, e3, e4, e5, e6, e7⟩ := idx0 t
  funext j
  rw [View.read_apply]
  have hj0 : (j 0).val < 1024 := (j 0).isLt
  have hj1 : (j 1).val < 2048 := (j 1).isLt
  refine (congrArg (k0_pay1 (F := Ideal) (iblk0 V c 0 t) (iblk0 V c 1 t) (iblk0 V c 2 t)) (eq_ix2 j)).trans ?_
  refine (block_layer (iblk0 V c 0 t) (iblk0 V c 1 t) (iblk0 V c 2 t) (V c main_v0) (V c main_v1) (V c main_v3)
    (win0_3.index t (0 : Fin 2)) (win0_3.index t (1 : Fin 2)) e6 e7 ?_ ?_ ?_ ⟨(j 0).val, hj0⟩ ⟨(j 1).val, hj1⟩).trans ?_
  · intro p k
    rw [iblk0_apply_0]
    refine congrArg (V c main_v0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 2048 + 1 * k.val = k.val; omega
  · intro q k
    rw [iblk0_apply_1]
    refine congrArg (V c main_v1) (funext fun a => Fin.ext ?_)
    match a with
    | ⟨0, _⟩ => show win0_1.index t (0 : Fin 2) * 2048 + 1 * q.val = win0_3.index t (1 : Fin 2) * 2048 + q.val; omega
    | ⟨1, _⟩ => show win0_1.index t (1 : Fin 2) * 2048 + 1 * k.val = k.val; omega
  · intro q
    rw [iblk0_apply_2]
    refine congrArg (V c main_v3) (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + q.val; omega
  · refine congrArg (hidden V c) (funext fun a => Fin.ext ?_)
    match a with
    | ⟨0, _⟩ => show win0_3.index t (0 : Fin 2) * 1024 + (j 0).val = win0_3.index t (0 : Fin 2) * 1024 + 1 * (j 0).val; omega
    | ⟨1, _⟩ => show win0_3.index t (1 : Fin 2) * 2048 + (j 1).val = win0_3.index t (1 : Fin 2) * 2048 + 1 * (j 1).val; omega

/-- An index of the hidden array is in point `t`'s block iff each coordinate is in the block's range. -/
theorem mem_blk0 (t : Fin cfg0.N) (i : S4096x8192.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v4).slice (win0_3.rect t)).set ↔ _
  rw [View.set_slice_whole, Rect.mem_set_unit]
  exact Iff.rfl

/-- The sixteen blocks cover the hidden array. -/
theorem cover0 (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := onto0 ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- The hidden array after the first region. -/
theorem final0 (c : Dev nD) : (dat0 V c).arrAt 3 cfg0.N = hidden V c :=
  (dat0 V c).arrAt_eq_of_cover 3 (hidden V c) (fun t _ => flushed0_eq V c t) (cover0)

end Cert.KernelIdeal.Val

end
-- ==== Proof.KI.Host.lean ====
/-
  What the regions find in the arrays they read, at the ideal instance: a change of float format is the identity, so
  the activations and both weight matrices arrive as launched; each bias arrives as a one-row matrix of itself; the
  second region finds the hidden array as the first region left it.
-/
import proofs.«136092_j20504173871714_2_alg».proof.Proof.KI.Run
import proofs.«136092_j20504173871714_2_alg».proof.Proof.KI.Final0
import Idealize.ShloMosaic.Lib.StableHlo.Run

set_option maxRecDepth 16384

noncomputable section

open scoped BigOperators

namespace Cert.KernelIdeal.Val

open Cert.KernelIdeal Cert.KernelIdeal.Gen Cert.Mlp
open Idealize.ShloMosaic Idealize.ShloMosaic.TcCoe Idealize.ShloMosaic.ValueIdx Idealize.SL.Sem
open Idealize.ShloMosaic.Pipeline (Dat)

open Cert.KernelIdeal.Fr

variable (m : (ℓ : Loc nD τ sig) → Buf (Elt Ideal) ℓ) (ρ : Dev nD → PrngReg)

theorem V1_v0 (c : Dev nD) : (V1 m ρ c main_v0 : S4096x2048.Idx → EReal) = m ((c : Thread nD τ).loc main_arg0) := by
  dsimp only [V1, W1, W0, hostOps0]; after_results; rfl

theorem V1_v1 (c : Dev nD) : (V1 m ρ c main_v1 : S8192x2048.Idx → EReal) = m ((c : Thread nD τ).loc main_arg1) := by
  dsimp only [V1, W1, W0, hostOps0]; after_results; rfl

theorem V1_v2 (c : Dev nD) : (V1 m ρ c main_v2 : S2048x8192.Idx → EReal) = m ((c : Thread nD τ).loc main_arg3) := by
  dsimp only [V1, W1, W0, hostOps0]; after_results; rfl

theorem V1_v3 (c : Dev nD) (q : Fin 8192) :
    (V1 m ρ c main_v3 : S1x8192.Idx → EReal) (ix2 (0 : Fin 1) q) = m ((c : Thread nD τ).loc main_arg2) (ix1 q) := by
  have e : (V1 m ρ c main_v3 : S1x8192.Idx → EReal)
      = shapeCast S1x8192 (m ((c : Thread nD τ).loc main_arg2)) shapeCasts_S8192_S1x8192 := by
    dsimp only [V1, W1, W0, hostOps0]; after_results; rfl
  rw [e]; exact shapeCast_a_1a_apply _ _ _ _

/-- The second region reads the hidden array as the first left it. -/
theorem V3_v4 (c : Dev nD) : (V3 m ρ c main_v4 : S4096x8192.Idx → EReal) = hidden (V1 m ρ) c :=
  calc (V3 m ρ c main_v4 : S4096x8192.Idx → EReal)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3
    _ = hidden (V1 m ρ) c := final0 (V1 m ρ) c

theorem V3_v2 (c : Dev nD) : (V3 m ρ c main_v2 : S2048x8192.Idx → EReal) = m ((c : Thread nD τ).loc main_arg3) :=
  calc (V3 m ρ c main_v2 : S2048x8192.Idx → EReal)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := W2_of_ne m ρ c main_v2 (by decide)
    _ = m ((c : Thread nD τ).loc main_arg3) := V1_v2 m ρ c

theorem V3_v5 (c : Dev nD) (q : Fin 2048) :
    (V3 m ρ c main_v5 : S1x2048.Idx → EReal) (ix2 (0 : Fin 1) q) = m ((c : Thread nD τ).loc main_arg4) (ix1 q) := by
  have e : (V3 m ρ c main_v5 : S1x2048.Idx → EReal)
      = shapeCast S1x2048 (W2 m ρ c (Proc.devRef .tc main_arg4) : S2048.Idx → EReal) shapeCasts_S2048_S1x2048 := by
    dsimp only [V3, W3, hostOps1]; after_results; rfl
  have e4 : (W2 m ρ c (Proc.devRef .tc main_arg4) : S2048.Idx → EReal) = m ((c : Thread nD τ).loc main_arg4) :=
    calc W2 m ρ c (Proc.devRef .tc main_arg4)
      _ = W1 m ρ c (Proc.devRef .tc main_arg4) := W2_of_ne m ρ c main_arg4 (by decide)
      _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg4) := rfl
  rw [e, e4]; exact shapeCast_a_1a_apply _ _ _ _

end Cert.KernelIdeal.Val

end
-- ==== Proof.KI.CaseVal.lean ====
/-
  What each case of the second layer's body leaves, as arithmetic of the blocks: with k = 0 the accumulator becomes
  zero plus the block product; with k = 1, 2 or 3 it becomes what the point before left plus the block product; with
  k = 3 the output block becomes the clamp of the new accumulator plus the bias. Every load and store takes a whole
  buffer, so reading the stored pieces back gives the stored values themselves.
-/
import proofs.«136092_j20504173871714_2_alg».proof.Proof.KI.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem sout1_A_eq (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond1_0 i) (hc1 : ¬cond1_1 i) (x0 : Vec F S1024x2048 .bf16) (x1 : Vec F S2048x2048 .bf16) :
    sout1_A c i arg2 harg2 arg3 harg3 arg4 harg4 arg5 harg5 arg6 harg6 hc0 hc1 x0 x1 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1)]
  unfold kernelRun1_A
  dsimp only
  sl_unfold_words
  rw [View.canon_cons_unit_zero (S := S1024x2048) hz, View.readCov_unit_zero (S := S1024x2048) _ hz]
  simp only [View.canon_unit_zero (S := S1024x2048) hz, View.readAt_eq_ld, harg2.read_unread, harg3.read_unread, harg4.read_unread, harg6.read_unread,
    View.ld_unit_zero (S := S1024x2048) hz, View.ld_unit_zero (S := S2048x2048) hz, View.ld_unit_zero (S := S1x2048) hz]

theorem sout1_B_eq (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i) (x0 : Vec F S1024x2048 .bf16) (x1 : Vec F S2048x2048 .bf16) (xs0 : Vec F S1024x2048 .f32) :
    sout1_B c i arg2 harg2 arg3 harg3 arg4 harg4 arg5 harg5 arg6 harg6 hc0 hc1 x0 x1 xs0 = k1_pay2 xs0 x0 x1 := by
  unfold sout1_B
  rw [View.read_writes_eq_canon _ _ _ (scover1_B c i arg2 harg2 arg3 harg3 arg4 harg4 arg5 harg5 arg6 harg6 hc0 hc1 x0 x1 xs0)]
  unfold kernelRun1_B
  dsimp only
  sl_unfold_words
  rw [View.canon_unit_zero hz]
  simp only [View.readAt_eq_ld, harg2.read_unread, harg3.read_unread, harg4.read_unread, harg6.read_unread,
    View.ld_unit_zero (S := S1024x2048) hz, View.ld_unit_zero (S := S2048x2048) hz, View.ld_unit_zero (S := S1x2048) hz]

theorem sout1_C_eq (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz]
  simp only [View.readAt_eq_ld, harg2.read_unread, harg3.read_unread, harg4.read_unread, harg6.read_unread,
    View.ld_unit_zero (S := S1024x2048) hz, View.ld_unit_zero (S := S2048x2048) hz, View.ld_unit_zero (S := S1x2048) hz]

theorem out1_C_eq (c : Dev nD) (i : grid1.Coords) (arg2 : Memref sig .tc .vmem S1024x2048 .bf16) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (hc0 : ¬cond1_0 i) (hc1 : cond1_1 i) (x0 : Vec F S1024x2048 .bf16) (x1 : Vec F S2048x2048 .bf16) (x2 : Vec F S1x2048 .f32) (xs0 : Vec F S1024x2048 .f32) :
    out1_C c i arg2 harg2 arg3 harg3 arg4 harg4 arg5 harg5 arg6 harg6 hc0 hc1 x0 x1 x2 xs0 = k1_pay3 (k1_pay2 xs0 x0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero hz, View.readCov_unit_zero (S := S1024x2048) _ hz]
  simp only [View.canon_unit_zero (S := S1024x2048) hz, View.readAt_eq_ld, harg2.read_unread, harg3.read_unread, harg4.read_unread, harg6.read_unread,
    View.ld_unit_zero (S := S1024x2048) hz, View.ld_unit_zero (S := S2048x2048) hz, View.ld_unit_zero (S := S1x2048) hz]

end Cert.KernelIdeal.Fr

end
-- ==== Proof.KI.Final1.lean ====
/-
  What the second region leaves in the result array, at the ideal instance. For a row block i the accumulator after
  the four points (i, 0) … (i, 3) is zero plus the four block products in order, each contracting 2048 consecutive
  inner positions of row block i of the hidden array against the same positions of the weights; the point (i, 3)
  adds the bias, clamps at zero and writes block (i, 0) of the result. Four block sums accumulated from zero are the
  sum over all 8192 positions, so the block is a dense layer of the hidden array; the four written blocks tile the
  result array.
-/
import proofs.«136092_j20504173871714_2_alg».proof.Proof.KI.CaseVal
import proofs.«136092_j20504173871714_2_alg».proof.Proof.KI.Pay

set_option maxRecDepth 16384

noncomputable section

open scoped BigOperators

namespace Cert.KernelIdeal.Val

open Cert.KernelIdeal Cert.KernelIdeal.Gen Cert.Mlp
open Idealize.ShloMosaic Idealize.ShloMosaic.TcCoe Idealize.ShloMosaic.ValueIdx Idealize.SL.Sem
open Idealize.ShloMosaic.Pipeline (Dat)

open Cert.KernelIdeal.Fr

variable (V : (c : Dev nD) → (b : Ref sig .tc) → Buf (Elt Ideal) ((c : Thread nD τ).loc b))

/-- The result array: one dense layer of the hidden array, the second weights and the second bias as the region finds them. -/
def result (c : Dev nD) : S4096x2048.Idx → EReal :=
  layer (B := 4096) (K := 8192) (N := 2048) (V c main_v4) (V c main_v2) (fun q => V c main_v5 (ix2 (0 : Fin 1) q))

/-- The four windows' block indices at every grid point, in closed form: point t is (i, k) = (t / 4, t mod 4). -/
theorem idx1 : ∀ t : Fin cfg1.N,
    win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

theorem iblk1_apply_0 (c : Dev nD) (t : Fin cfg1.N) (y : ((cfg1.win 0).xblock (cfg1.grid.coords t)).Idx) :
    iblk1 V c 0 t y = V c main_v4 (((cfg1.win 0).blk t).view.emb y) := by
  unfold iblk1; rw [View.read_apply]; rfl
theorem iblk1_apply_1 (c : Dev nD) (t : Fin cfg1.N) (y : ((cfg1.win 1).xblock (cfg1.grid.coords t)).Idx) :
    iblk1 V c 1 t y = V c main_v2 (((cfg1.win 1).blk t).view.emb y) := by
  unfold iblk1; rw [View.read_apply]; rfl
theorem iblk1_apply_2 (c : Dev nD) (t : Fin cfg1.N) (y : ((cfg1.win 2).xblock (cfg1.grid.coords t)).Idx) :
    iblk1 V c 2 t y = V c main_v5 (((cfg1.win 2).blk t).view.emb y) := by
  unfold iblk1; rw [View.read_apply]; rfl

/-! ## The accumulator and the output block, point by point -/

theorem acc_first (c : Dev nD) (n : ℕ) (h : n < cfg1.N) (hn : n % 4 = 0) :
    (outsAt1 V c n h).2 = k1_pay2 (F := Ideal) (k1_pay1 (F := Ideal)) (iblk1 V c 0 ⟨n, h⟩) (iblk1 V c 1 ⟨n, h⟩) := by
  have e := outsAt1_A V c ⟨n, h⟩ hn (by show ¬ n % 4 = 3; omega)
  rw [show outsAt1 V c n h = _ from e]
  dsimp only
  exact sout1_A_eq c _ _ _ _ _ _ _ _ _ _ _ _ _ _ _

theorem acc_step (c : Dev nD) (n : ℕ) (h : n + 1 < cfg1.N) (h0 : ¬ (n + 1) % 4 = 0) :
    (outsAt1 V c (n + 1) h).2
      = k1_pay2 (F := Ideal) (outsAt1 V c n (Nat.lt_of_succ_lt h)).2 (iblk1 V c 0 ⟨n + 1, h⟩) (iblk1 V c 1 ⟨n + 1, h⟩) := by
  by_cases h1 : (n + 1) % 4 = 3
  · have e := outsAt1_C V c ⟨n + 1, h⟩ h0 h1
    rw [show outsAt1 V c (n + 1) h = _ from e]
    dsimp only
    exact sout1_C_eq c _ _ _ _ _ _ _ _ _ _ _ _ _ _ _ _ _
  · have e := outsAt1_B V c ⟨n + 1, h⟩ h0 h1
    rw [show outsAt1 V c (n + 1) h = _ from e]
    dsimp only
    exact sout1_B_eq c _ _ _ _ _ _ _ _ _ _ _ _ _ _ _ _

theorem out_last (c : Dev nD) (n : ℕ) (h : n + 1 < cfg1.N) (h1 : (n + 1) % 4 = 3) :
    (outsAt1 V c (n + 1) h).1
      = k1_pay3 (F := Ideal) (k1_pay2 (F := Ideal) (outsAt1 V c n (Nat.lt_of_succ_lt h)).2 (iblk1 V c 0 ⟨n + 1, h⟩) (iblk1 V c 1 ⟨n + 1, h⟩))
          (iblk1 V c 2 ⟨n + 1, h⟩) := by
  have e := outsAt1_C V c ⟨n + 1, h⟩ (by show ¬ (n + 1) % 4 = 0; omega) h1
  rw [show outsAt1 V c (n + 1) h = _ from e]
  dsimp only
  exact out1_C_eq c _ _ _ _ _ _ _ _ _ _ _ _ _ _ _ _ _

/-! ## One entry of the output block -/

/-- Zero plus four block products in order, plus the bias, clamped — for blocks that are blocks (bi, 0 … 3) of the
    hidden array, blocks (·, 0 … 3) of the weights and the bias row — is the dense layer at row bi·1024 + p. -/
theorem block_layer2 (a0 a1 a2 a3 : Vec Ideal S1024x2048 .bf16) (w0 w1 w2 w3 : Vec Ideal S2048x2048 .bf16) (x2 : Vec Ideal S1x2048 .f32)
    (A4 : S4096x8192.Idx → EReal) (A2 : S2048x8192.Idx → EReal) (A5 : S1x2048.Idx → EReal) (bi : ℕ) (hbi : bi ≤ 3)
    (ha0 : ∀ (p : Fin 1024) (k : Fin 2048), a0 (ix2 p k) = A4 (ix2 (⟨bi * 1024 + p.val, by have := p.isLt; omega⟩ : Fin 4096) (⟨0 * 2048 + k.val, by have := k.isLt; omega⟩ : Fin 8192)))
    (ha1 : ∀ (p : Fin 1024) (k : Fin 2048), a1 (ix2 p k) = A4 (ix2 (⟨bi * 1024 + p.val, by have := p.isLt; omega⟩ : Fin 4096) (⟨1 * 2048 + k.val, by have := k.isLt; omega⟩ : Fin 8192)))
    (ha2 : ∀ (p : Fin 1024) (k : Fin 2048), a2 (ix2 p k) = A4 (ix2 (⟨bi * 1024 + p.val, by have := p.isLt; omega⟩ : Fin 4096) (⟨2 * 2048 + k.val, by have := k.isLt; omega⟩ : Fin 8192)))
    (ha3 : ∀ (p : Fin 1024) (k : Fin 2048), a3 (ix2 p k) = A4 (ix2 (⟨bi * 1024 + p.val, by have := p.isLt; omega⟩ : Fin 4096) (⟨3 * 2048 + k.val, by have := k.isLt; omega⟩ : Fin 8192)))
    (hw0 : ∀ (q : Fin 2048) (k : Fin 2048), w0 (ix2 q k) = A2 (ix2 q (⟨0 * 2048 + k.val, by have := k.isLt; omega⟩ : Fin 8192)))
    (hw1 : ∀ (q : Fin 2048) (k : Fin 2048), w1 (ix2 q k) = A2 (ix2 q (⟨1 * 2048 + k.val, by have := k.isLt; omega⟩ : Fin 8192)))
    (hw2 : ∀ (q : Fin 2048) (k : Fin 2048), w2 (ix2 q k) = A2 (ix2 q (⟨2 * 2048 + k.val, by have := k.isLt; omega⟩ : Fin 8192)))
    (hw3 : ∀ (q : Fin 2048) (k : Fin 2048), w3 (ix2 q k) = A2 (ix2 q (⟨3 * 2048 + k.val, by have := k.isLt; omega⟩ : Fin 8192)))
    (hb : ∀ q : Fin 2048, x2 (ix2 (0 : Fin 1) q) = A5 (ix2 (0 : Fin 1) q))
    (p : Fin 1024) (q : Fin 2048) :
    max (zr + (∑ k : Fin 2048, a0 (ix2 p k) * w0 (ix2 q k)) + (∑ k : Fin 2048, a1 (ix2 p k) * w1 (ix2 q k))
          + (∑ k : Fin 2048, a2 (ix2 p k) * w2 (ix2 q k)) + (∑ k : Fin 2048, a3 (ix2 p k) * w3 (ix2 q k)) + x2 (ix2 (0 : Fin 1) q)) zr
      = layer (B := 4096) (K := 8192) (N := 2048) A4 A2 (fun q => A5 (ix2 (0 : Fin 1) q))
          (ix2 (⟨bi * 1024 + p.val, by have := p.isLt; omega⟩ : Fin 4096) q) := by
  rw [layer_apply, hb]
  refine congrArg (fun s => max (s + A5 (ix2 (0 : Fin 1) q)) zr) ?_
  exact sum_four_blocks
    (fun k : Fin 8192 => A4 (ix2 (⟨bi * 1024 + p.val, by have := p.isLt; omega⟩ : Fin 4096) k) * A2 (ix2 q k))
    (fun (kb : Fin 4) (kk : Fin 2048) => match kb with
      | ⟨0, _⟩ => a0 (ix2 p kk) * w0 (ix2 q kk)
      | ⟨1, _⟩ => a1 (ix2 p kk) * w1 (ix2 q kk)
      | ⟨2, _⟩ => a2 (ix2 p kk) * w2 (ix2 q kk)
      | ⟨3, _⟩ => a3 (ix2 p kk) * w3 (ix2 q kk))
    (fun kb kk => by
      match kb with
      | ⟨0, _⟩ => show a0 (ix2 p kk) * w0 (ix2 q kk) = _; rw [ha0, hw0]
      | ⟨1, _⟩ => show a1 (ix2 p kk) * w1 (ix2 q kk) = _; rw [ha1, hw1]
      | ⟨2, _⟩ => show a2 (ix2 p kk) * w2 (ix2 q kk) = _; rw [ha2, hw2]
      | ⟨3, _⟩ => show a3 (ix2 p kk) * w3 (ix2 q kk) = _; rw [ha3, hw3])

/-- A block of the hidden array at point (i, k), read at (p, kk): row i·1024 + p, position k·2048 + kk. -/
theorem hid_blk (c : Dev nD) (t : Fin cfg1.N) (bi kb : ℕ) (hbi : bi ≤ 3) (hkb : kb ≤ 3) (hi : t.val / 4 = bi) (hk : t.val % 4 = kb)
    (p : Fin 1024) (k : Fin 2048) :
    (iblk1 V c 0 t : Vec Ideal S1024x2048 .bf16) (ix2 p k)
      = V c main_v4 (ix2 (⟨bi * 1024 + p.val, by have := p.isLt; omega⟩ : Fin 4096) (⟨kb * 2048 + k.val, by have := k.isLt; omega⟩ : Fin 8192)) := by
  obtain ⟨e0, e1, -⟩ := idx1 t
  rw [iblk1_apply_0]
  refine congrArg (V c main_v4) (funext fun a => Fin.ext ?_)
  match a with
  | ⟨0, _⟩ => show win1_0.index t (0 : Fin 2) * 1024 + 1 * p.val = bi * 1024 + p.val; omega
  | ⟨1, _⟩ => show win1_0.index t (1 : Fin 2) * 2048 + 1 * k.val = kb * 2048 + k.val; omega

/-- A block of the second weights at point (i, k), read at (q, kk): row q, position k·2048 + kk. -/
theorem w_blk (c : Dev nD) (t : Fin cfg1.N) (kb : ℕ) (hkb : kb ≤ 3) (hk : t.val % 4 = kb) (q : Fin 2048) (k : Fin 2048) :
    (iblk1 V c 1 t : Vec Ideal S2048x2048 .bf16) (ix2 q k)
      = V c main_v2 (ix2 q (⟨kb * 2048 + k.val, by have := k.isLt; omega⟩ : Fin 8192)) := by
  obtain ⟨-, -, e2, e3, -⟩ := idx1 t
  rw [iblk1_apply_1]
  refine congrArg (V c main_v2) (funext fun a => Fin.ext ?_)
  match a with
  | ⟨0, _⟩ => show win1_1.index t (0 : Fin 2) * 2048 + 1 * q.val = q.val; omega
  | ⟨1, _⟩ => show win1_1.index t (1 : Fin 2) * 2048 + 1 * k.val = kb * 2048 + k.val; omega

/-- The bias block is the whole bias row. -/
theorem b_blk (c : Dev nD) (t : Fin cfg1.N) (q : Fin 2048) :
    (iblk1 V c 2 t : Vec Ideal S1x2048 .f32) (ix2 (0 : Fin 1) q) = V c main_v5 (ix2 (0 : Fin 1) q) := by
  obtain ⟨-, -, -, -, e4, e5, -⟩ := idx1 t
  rw [iblk1_apply_2]
  refine congrArg (V c main_v5) (funext fun a => Fin.ext ?_)
  match a with
  | ⟨0, _⟩ => show win1_2.index t (0 : Fin 2) * 1 + 1 * 0 = 0; omega
  | ⟨1, _⟩ => show win1_2.index t (1 : Fin 2) * 2048 + 1 * q.val = q.val; omega

/-- The output block after the last point of row block n / 4, at entry (p, q): the result array's entry at row
    (n / 4) · 1024 + p, column q. -/
theorem out_entry (c : Dev nD) (n : ℕ) (ht : n + 1 + 1 + 1 < cfg1.N) (hn : n % 4 = 0) (p : Fin 1024) (q : Fin 2048) :
    ((outsAt1 V c (n + 1 + 1 + 1) ht).1 : Vec Ideal S1024x2048 .f32) (ix2 p q)
      = result V c (ix2 (⟨n / 4 * 1024 + p.val, by have := p.isLt; have hN : cfg1.N = 16 := N_1; omega⟩ : Fin 4096) q) := by
  have hN : cfg1.N = 16 := N_1
  rw [out_last V c (n + 1 + 1) ht (by omega), pay3_apply, pay2_apply, acc_step V c (n + 1) (Nat.lt_of_succ_lt ht) (by omega), pay2_apply,
    acc_step V c n (Nat.lt_of_succ_lt (Nat.lt_of_succ_lt ht)) (by omega), pay2_apply,
    acc_first V c n (Nat.lt_of_succ_lt (Nat.lt_of_succ_lt (Nat.lt_of_succ_lt ht))) hn, pay2_apply, pay1_apply]
  exact block_layer2 _ _ _ _ _ _ _ _ _ (V c main_v4) (V c main_v2) (V c main_v5) (n / 4) (by omega)
    (fun p k => hid_blk V c ⟨n, _⟩ (n / 4) 0 (by omega) (by omega) rfl hn p k)
    (fun p k => hid_blk V c ⟨n + 1, _⟩ (n / 4) 1 (by omega) (by omega) (by show (n + 1) / 4 = n / 4; omega) (by show (n + 1) % 4 = 1; omega) p k)
    (fun p k => hid_blk V c ⟨n + 1 + 1, _⟩ (n / 4) 2 (by omega) (by omega) (by show (n + 1 + 1) / 4 = n / 4; omega) (by show (n + 1 + 1) % 4 = 2; omega) p k)
    (fun p k => hid_blk V c ⟨n + 1 + 1 + 1, ht⟩ (n / 4) 3 (by omega) (by omega) (by show (n + 1 + 1 + 1) / 4 = n / 4; omega) (by show (n + 1 + 1 + 1) % 4 = 3; omega) p k)
    (fun q k => w_blk V c ⟨n, _⟩ 0 (by omega) hn q k)
    (fun q k => w_blk V c ⟨n + 1, _⟩ 1 (by omega) (by show (n + 1) % 4 = 1; omega) q k)
    (fun q k => w_blk V c ⟨n + 1 + 1, _⟩ 2 (by omega) (by show (n + 1 + 1) % 4 = 2; omega) q k)
    (fun q k => w_blk V c ⟨n + 1 + 1 + 1, ht⟩ 3 (by omega) (by show (n + 1 + 1 + 1) % 4 = 3; omega) q k)
    (fun q => b_blk V c ⟨n + 1 + 1 + 1, ht⟩ q) p q

/-- What a point with k = 3 writes back is its block of the result array. -/
theorem flushed1_eq (c : Dev nD) (t : Fin cfg1.N) (hf : (cfg1.win 3).flush t = true) :
    (dat1 V c).flushed 3 t = ((cfg1.win 3).blk t).view.read (Elt Ideal) (result V c) := by
  have h3 : t.val % 4 = 3 := (flush1_3 t).mp hf
  have hN : cfg1.N = 16 := N_1
  obtain ⟨tv, ht⟩ := t
  obtain ⟨n, rfl⟩ : ∃ n, tv = n + 1 + 1 + 1 := ⟨tv - 3, by dsimp only at h3; omega⟩
  have hn : n % 4 = 0 := by dsimp only at h3; omega
  obtain ⟨-, -, -, -, -, -, e6, e7⟩ := idx1 ⟨n + 1 + 1 + 1, ht⟩
  show (cfg1.win 3).cut (grid1.coords ⟨n + 1 + 1 + 1, ht⟩) ((dat1 V c).after 3 ⟨n + 1 + 1 + 1, ht⟩) = _
  rw [after1_3]
  funext j
  rw [View.read_apply]
  have hj0 : (j 0).val < 1024 := (j 0).isLt
  have hj1 : (j 1).val < 2048 := (j 1).isLt
  have hj : (j : S1024x2048.Idx) = ix2 (⟨(j 0).val, hj0⟩ : Fin 1024) (⟨(j 1).val, hj1⟩ : Fin 2048) := funext fun a => by
    match a with
    | ⟨0, _⟩ => rfl
    | ⟨1, _⟩ => rfl
  refine (congrArg ((outsAt1 V c (n + 1 + 1 + 1) ht).1 : Vec Ideal S1024x2048 .f32) hj).trans ?_
  refine (out_entry V c n ht hn ⟨(j 0).val, hj0⟩ ⟨(j 1).val, hj1⟩).trans ?_
  refine congrArg (result V c) (funext fun a => Fin.ext ?_)
  match a with
  | ⟨0, _⟩ => show n / 4 * 1024 + (j 0).val = win1_3.index ⟨n + 1 + 1 + 1, ht⟩ (0 : Fin 2) * 1024 + 1 * (j 0).val; rw [e6]; show _ = (n + 1 + 1 + 1) / 4 * 1024 + 1 * (j 0).val; omega
  | ⟨1, _⟩ => show (j 1).val = win1_3.index ⟨n + 1 + 1 + 1, ht⟩ (1 : Fin 2) * 2048 + 1 * (j 1).val; rw [e7]; omega

theorem mem_blk1 (t : Fin cfg1.N) (i : S4096x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v6).slice (win1_3.rect t)).set ↔ _
  rw [View.set_slice_whole, Rect.mem_set_unit]
  exact Iff.rfl

/-- The four written blocks cover the result array. -/
theorem cover1 (i : S4096x2048.Idx) : ∃ t : Fin cfg1.N, (cfg1.win 3).flush t = true ∧ i ∈ ((cfg1.win 3).blk t).view.set := by
  have hi0 : (i 0).val < 4096 := (i 0).isLt
  have hi1 : (i 1).val < 2048 := (i 1).isLt
  have hN : cfg1.N = 16 := N_1
  have htl : 4 * ((i 0).val / 1024) + 3 < cfg1.N := by omega
  obtain ⟨-, -, -, -, -, -, e6, e7⟩ := idx1 ⟨4 * ((i 0).val / 1024) + 3, htl⟩
  refine ⟨⟨4 * ((i 0).val / 1024) + 3, htl⟩, (flush1_3 _).mpr (by show (4 * ((i 0).val / 1024) + 3) % 4 = 3; omega), ?_⟩
  rw [mem_blk1]
  intro a
  match a with
  | ⟨0, _⟩ => show win1_3.index ⟨4 * ((i 0).val / 1024) + 3, htl⟩ (0 : Fin 2) * 1024 ≤ (i 0).val ∧ (i 0).val < win1_3.index ⟨4 * ((i 0).val / 1024) + 3, htl⟩ (0 : Fin 2) * 1024 + 1024
              rw [e6]; show (4 * ((i 0).val / 1024) + 3) / 4 * 1024 ≤ (i 0).val ∧ (i 0).val < (4 * ((i 0).val / 1024) + 3) / 4 * 1024 + 1024; omega
  | ⟨1, _⟩ => show win1_3.index ⟨4 * ((i 0).val / 1024) + 3, htl⟩ (1 : Fin 2) * 2048 ≤ (i 1).val ∧ (i 1).val < win1_3.index ⟨4 * ((i 0).val / 1024) + 3, htl⟩ (1 : Fin 2) * 2048 + 2048
              rw [e7]; omega

/-- The result array after the second region. -/
theorem final1 (c : Dev nD) : (dat1 V c).arrAt 3 cfg1.N = result V c :=
  (dat1 V c).arrAt_eq_of_cover 3 (result V c) (fun t hf => flushed1_eq V c t hf) (cover1)

end Cert.KernelIdeal.Val

end
-- ==== Proof.KI.Value.lean ====
/-
  The kernel program's result at the ideal instance: the second region's array is a dense layer of what it reads, the
  hidden array it reads is the first region's dense layer of what that region reads, and the host lines in between
  change nothing at the ideal instance; so the result is the two dense layers of the arguments.
-/
import proofs.«136092_j20504173871714_2_alg».proof.Proof.KI.Host
import proofs.«136092_j20504173871714_2_alg».proof.Proof.KI.Final1

set_option maxRecDepth 16384

noncomputable section

open scoped BigOperators

namespace Cert.KernelIdeal.Val

open Cert.KernelIdeal Cert.KernelIdeal.Gen Cert.Mlp
open Idealize.ShloMosaic Idealize.ShloMosaic.TcCoe Idealize.ShloMosaic.ValueIdx Idealize.SL.Sem
open Idealize.ShloMosaic.Pipeline (Dat)

open Cert.KernelIdeal.Fr

variable (m : (ℓ : Loc nD τ sig) → Buf (Elt Ideal) ℓ) (ρ : Dev nD → PrngReg)

theorem kernel_value (c : Dev nD) :
    (dat1 (V3 m ρ) c).arrAt 3 cfg1.N
      = layer (B := 4096) (K := 8192) (N := 2048) (layer (B := 4096) (K := 2048) (N := 8192) (m ((c : Thread nD τ).loc main_arg0)) (m ((c : Thread nD τ).loc main_arg1)) (fun q => (m ((c : Thread nD τ).loc main_arg2)) (ix1 q))) (m ((c : Thread nD τ).loc main_arg3)) (fun q => (m ((c : Thread nD τ).loc main_arg4)) (ix1 q)) := by
  rw [final1 (V3 m ρ) c]
  have e5 : (fun q : Fin 2048 => (V3 m ρ c main_v5 : S1x2048.Idx → EReal) (ix2 (0 : Fin 1) q))
      = fun q => m ((c : Thread nD τ).loc main_arg4) (ix1 q) := funext (V3_v5 m ρ c)
  have e3 : (fun q : Fin 8192 => (V1 m ρ c main_v3 : S1x8192.Idx → EReal) (ix2 (0 : Fin 1) q))
      = fun q => m ((c : Thread nD τ).loc main_arg2) (ix1 q) := funext (V1_v3 m ρ c)
  unfold result
  rw [V3_v4, V3_v2, e5]
  unfold hidden
  rw [V1_v0, V1_v1, e3]

/-- The kernel program's run with its result named. -/
theorem run : θ_run defs (onTc (τ := τ) (main (F := Ideal))) ⟨m, fun _ => 0, ρ⟩ (fun r => ∀ c : Dev nD,
      r.2.mem ((c.tc : Thread nD τ).loc main_v6)
        = layer (B := 4096) (K := 8192) (N := 2048) (layer (B := 4096) (K := 2048) (N := 8192) (m ((c : Thread nD τ).loc main_arg0)) (m ((c : Thread nD τ).loc main_arg1)) (fun q => (m ((c : Thread nD τ).loc main_arg2)) (ix1 q))) (m ((c : Thread nD τ).loc main_arg3)) (fun q => (m ((c : Thread nD τ).loc main_arg4)) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (kernel_value m ρ c), (h c).2⟩) (Cert.KernelIdeal.Fr.run (F := Ideal) m ρ)

end Cert.KernelIdeal.Val

end
-- ==== Proof.RefValue.lean ====
/-
  The reference at the ideal instance, entry by entry: each einsum is the sum over the contracted axis of products of
  one row of each operand, each bias is broadcast along the rows, each relu is a maximum with zero. So its result is
  the two dense layers of the arguments.
-/
import proofs.«136092_j20504173871714_2_alg».proof.Proof.Gen.ReferenceIdeal.Read
import proofs.«136092_j20504173871714_2_alg».proof.Proof.Spec

noncomputable section

open scoped BigOperators

namespace Cert.ReferenceIdeal.RefValue

open Cert.ReferenceIdeal Cert.ReferenceIdeal.Gen Cert.ReferenceIdeal.Read Cert.Mlp
open Idealize.ShloMosaic Idealize.ShloMosaic.ValueIdx

/-- The reference's hidden array is the first dense layer of its arguments. -/
theorem hidden_eq (x0 : (⟨S4096x2048, .f32⟩ : BufTy).Contents (Elt Ideal)) (x1 : (⟨S8192x2048, .f32⟩ : BufTy).Contents (Elt Ideal))
    (x2 : (⟨S8192, .f32⟩ : BufTy).Contents (Elt Ideal)) :
    val_main_v4 (F := Ideal) x0 x1 x2 = layer (B := 4096) (K := 2048) (N := 8192) x0 x1 (fun q => x2 (ix1 q)) := by
  funext i
  obtain ⟨r, c, rfl⟩ : ∃ (r : Fin 4096) (c : Fin 8192), i = ix2 r c := ⟨i 0, i 1, eq_ix2 i⟩
  rw [val_main_v4_apply, val_main_v3_apply, val_main_v0_apply, val_main_v2_apply, val_main_v1_apply, val_main_call0_v0_apply,
    val_main_call0_cst_apply, layer_apply]
  have el : ∀ k, lidx_main_v0 (ix2 r c) k = ix2 r k := fun k => funext fun a => Fin.ext (by
    match a with
    | ⟨0, _⟩ => rfl
    | ⟨1, _⟩ => rfl)
  have er : ∀ k, ridx_main_v0 (ix2 r c) k = ix2 c k := fun k => funext fun a => Fin.ext (by
    match a with
    | ⟨0, _⟩ => rfl
    | ⟨1, _⟩ => rfl)
  have eb : idx_main_v1 (idx_main_v2 (ix2 r c)) = ix1 c := funext fun a => Fin.ext (by
    match a with
    | ⟨0, _⟩ => rfl)
  simp only [el, er, eb]
  rfl

/-- The reference's result is the two dense layers of its arguments. -/
theorem result_eq (x0 : (⟨S4096x2048, .f32⟩ : BufTy).Contents (Elt Ideal)) (x1 : (⟨S8192x2048, .f32⟩ : BufTy).Contents (Elt Ideal))
    (x2 : (⟨S8192, .f32⟩ : BufTy).Contents (Elt Ideal)) (x3 : (⟨S2048x8192, .f32⟩ : BufTy).Contents (Elt Ideal))
    (x4 : (⟨S2048, .f32⟩ : BufTy).Contents (Elt Ideal)) :
    val_main_v9 (F := Ideal) x0 x1 x2 x3 x4 = layer (B := 4096) (K := 8192) (N := 2048) (layer (B := 4096) (K := 2048) (N := 8192) x0 x1 (fun q => x2 (ix1 q))) x3 (fun q => x4 (ix1 q)) := by
  funext i
  obtain ⟨r, c, rfl⟩ : ∃ (r : Fin 4096) (c : Fin 2048), i = ix2 r c := ⟨i 0, i 1, eq_ix2 i⟩
  rw [val_main_v9_apply, val_main_v8_apply, val_main_v5_apply, val_main_v7_apply, val_main_v6_apply, val_main_call1_v0_apply,
    val_main_call1_cst_apply, layer_apply, hidden_eq]
  have el : ∀ k, lidx_main_v5 (ix2 r c) k = ix2 r k := fun k => funext fun a => Fin.ext (by
    match a with
    | ⟨0, _⟩ => rfl
    | ⟨1, _⟩ => rfl)
  have er : ∀ k, ridx_main_v5 (ix2 r c) k = ix2 c k := fun k => funext fun a => Fin.ext (by
    match a with
    | ⟨0, _⟩ => rfl
    | ⟨1, _⟩ => rfl)
  have eb : idx_main_v6 (idx_main_v7 (ix2 r c)) = ix1 c := funext fun a => Fin.ext (by
    match a with
    | ⟨0, _⟩ => rfl)
  simp only [el, er, eb]
  rfl

end Cert.ReferenceIdeal.RefValue

end
-- ==== Proof.lean ====
/-
  Two dense layers, each followed by a clamp at zero: out = max (max (x · W1ᵀ + b1, 0) · W2ᵀ + b2, 0).

  The kernel program runs them as two kernel regions over 4 x 4 grids. The first writes each 1024 x 2048 block of the
  hidden array from one full-depth block product. The second splits the 8192 inner positions into four blocks of 2048
  and accumulates the four block products in a scratch buffer, zeroed at the first and flushed (bias, clamp) at the
  last. The reference takes both products whole. At the ideal instance the changes of float format are the identity and
  a sum of extended reals may be taken in four consecutive blocks accumulated from zero, so the two programs compute
  one function of the arguments; no finiteness is used.

  The frames: each region's body is run once per case of its conditions, the second region's invariant carries the
  accumulator from grid point to grid point, and the program is the chain host lines, region, host line, region. The
  reference's frame is its run with the result dropped. The idealization rewrote nothing.
-/
import proofs.«136092_j20504173871714_2_alg».proof.Defs
import proofs.«136092_j20504173871714_2_alg».proof.Proof.Gen.Kernel
import proofs.«136092_j20504173871714_2_alg».proof.Proof.Gen.KernelIdeal
import proofs.«136092_j20504173871714_2_alg».proof.Proof.Gen.ReferenceIdeal
import proofs.«136092_j20504173871714_2_alg».proof.Proof.Gen.Pre_finite_inputs
import proofs.«136092_j20504173871714_2_alg».proof.Proof.K.Run
import proofs.«136092_j20504173871714_2_alg».proof.Proof.KI.Value
import proofs.«136092_j20504173871714_2_alg».proof.Proof.RefValue

noncomputable section

namespace Cert.Proof

open Idealize.ShloMosaic Idealize.ShloMosaic.TcCoe Idealize.ShloMosaic.ValueIdx Idealize.SL.Sem Cert.Mlp

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two dense layers of arguments that agree. -/
theorem algebraic : Cert.algebraic_KernelIdeal_ReferenceIdeal := by
  intro m ρ m' ρ' _ hagree
  refine ⟨fun c => layer (B := 4096) (K := 8192) (N := 2048) (layer (B := 4096) (K := 2048) (N := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (fun q => (m ((c.tc : Thread Cert.KernelIdeal.nD Cert.KernelIdeal.τ).loc Cert.KernelIdeal.main_arg2)) (ix1 q))) (m ((c.tc : Thread Cert.KernelIdeal.nD Cert.KernelIdeal.τ).loc Cert.KernelIdeal.main_arg3)) (fun q => (m ((c.tc : Thread Cert.KernelIdeal.nD Cert.KernelIdeal.τ).loc Cert.KernelIdeal.main_arg4)) (ix1 q)),
    Cert.KernelIdeal.Val.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
